-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x1 .f32) (main_arg4 : FVec F S1 .f32) (main_arg5 : IVec S800000 32) (main_arg6 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S25000 : Shape := ⟨1, ![25000]⟩
abbrev S800000x1 : Shape := ⟨2, ![800000, 1]⟩
abbrev S800000x128 : Shape := ⟨2, ![800000, 128]⟩
abbrev S25000x128 : Shape := ⟨2, ![25000, 128]⟩
abbrev S25000x1 : Shape := ⟨2, ![25000, 1]⟩
abbrev S100000 : Shape := ⟨1, ![100000]⟩
abbrev S100000x1 : Shape := ⟨2, ![100000, 1]⟩
abbrev S1x1 : Shape := ⟨2, ![1, 1]⟩
abbrev S5000x1 : Shape := ⟨2, ![5000, 1]⟩

abbrev nBuf : Space → Nat
  | .hbm => 109
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S800000, .i32⟩
  | .hbm, ⟨6, _⟩ => ⟨S800000, .i32⟩
  | .hbm, ⟨7, _⟩ => ⟨S1x128, .f32⟩
  | .hbm, ⟨8, _⟩ => ⟨S100000x128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S25000, .f32⟩
  | .hbm, ⟨13, _⟩ => ⟨S800000x1, .i32⟩
  | .hbm, ⟨14, _⟩ => ⟨S25000, .f32⟩
  | .hbm, ⟨15, _⟩ => ⟨S_, .f32⟩
  | .hbm, ⟨16, _⟩ => ⟨S25000, .f32⟩
  | .hbm, ⟨17, _⟩ => ⟨S25000, .f32⟩
  | .hbm, ⟨18, _⟩ => ⟨S_, .f32⟩
  | .hbm, ⟨19, _⟩ => ⟨S25000, .f32⟩
  | .hbm, ⟨20, _⟩ => ⟨S25000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S25000x128, .f32⟩
  | .hbm, ⟨32, _⟩ => ⟨S800000x1, .i32⟩
  | .hbm, ⟨33, _⟩ => ⟨S25000x128, .f32⟩
  | .hbm, ⟨34, _⟩ => ⟨S25000x1, .f32⟩
  | .hbm, ⟨35, _⟩ => ⟨S25000x128, .f32⟩
  | .hbm, ⟨36, _⟩ => ⟨S25000x128, .f32⟩
  | .hbm, ⟨37, _⟩ => ⟨S_, .f32⟩
  | .hbm, ⟨38, _⟩ => ⟨S100000, .f32⟩
  | .hbm, ⟨39, _⟩ => ⟨S800000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S25000x128, .f32⟩
  | .hbm, ⟨74, _⟩ => ⟨S800000x1, .i32⟩
  | .hbm, ⟨75, _⟩ => ⟨S25000x128, .f32⟩
  | .hbm, ⟨76, _⟩ => ⟨S25000x1, .f32⟩
  | .hbm, ⟨77, _⟩ => ⟨S25000x128, .f32⟩
  | .hbm, ⟨78, _⟩ => ⟨S25000x128, .f32⟩
  | .hbm, ⟨79, _⟩ => ⟨S1x1, .f32⟩
  | .hbm, ⟨80, _⟩ => ⟨S25000x1, .f32⟩
  | .hbm, ⟨81, _⟩ => ⟨S25000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S100000x128, .f32⟩
  | .hbm, ⟨93, _⟩ => ⟨S800000x1, .i32⟩
  | .hbm, ⟨94, _⟩ => ⟨S100000x128, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x1, .f32⟩
  | .hbm, ⟨104, _⟩ => ⟨S_, .f32⟩
  | .hbm, ⟨105, _⟩ => ⟨S100000x1, .f32⟩
  | .hbm, ⟨106, _⟩ => ⟨S800000x1, .i32⟩
  | .hbm, ⟨107, _⟩ => ⟨S100000x1, .f32⟩
  | .hbm, ⟨108, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57_0 : Ref sig .tc := ⟨.hbm, 80, rfl⟩
abbrev main_v57_1 : Ref sig .tc := ⟨.hbm, 81, rfl⟩
abbrev main_c_14 : Ref sig .tc := ⟨.hbm, 82, rfl⟩
abbrev main_v58 : Ref sig .tc := ⟨.hbm, 83, rfl⟩
abbrev main_v59 : Ref sig .tc := ⟨.hbm, 84, rfl⟩
abbrev main_c_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_17 : Ref sig .tc := ⟨.hbm, 95, rfl⟩
abbrev main_v68 : Ref sig .tc := ⟨.hbm, 96, rfl⟩
abbrev main_v69 : Ref sig .tc := ⟨.hbm, 97, rfl⟩
abbrev main_c_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S_S25000 : S_.BroadcastsInDim S25000 (![] : Fin 0 → Fin S25000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S100000 : S_.BroadcastsInDim S100000 (![] : Fin 0 → Fin S100000.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S100000x1 : S_.BroadcastsInDim S100000x1 (![] : Fin 0 → Fin S100000x1.rank)
  shapeCasts_S5000x1_S5000x1 : S5000x1.ShapeCasts S5000x1
  dot_S5000x128_S128x128_S5000x128_1_0_0_1_n_n_wf : DotDims.WF S5000x128 S128x128 S5000x128 [1] [0] [0] [1] [] []
  scatter_S25000_S800000x1_S800000_n_0_0_1_wf : ScatterDims.WF S25000 S800000x1 S800000 [] [0] [0] 1
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  scatter_S100000_S800000x1_S800000_n_0_0_1_wf : ScatterDims.WF S100000 S800000x1 S800000 [] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x1_S5000x1_1_0_0_1_n_n_wf : DotDims.WF S5000x128 S128x1 S5000x1 [1] [0] [0] [1] [] []
  gather_S25000x1_S800000x1_S800000x1_1_0_n_n_0_1_11_wf : GatherDims.WF S25000x1 S800000x1 S800000x1 [1] [0] [] [0] [] 1 ![1, 1]
  scatter_S100000x1_S800000x1_S800000x1_1_0_0_1_wf : ScatterDims.WF S100000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S25000x1.size a
  hwx1_3 : ∀ i : grid1.Coords, EltTy.bits .f32 = 32 ∨ (Rect.block (s := S25000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S25000x128.size a
  hwx1_4 : ∀ i : grid1.Coords, EltTy.bits .f32 = 32 ∨ (Rect.block (s := S25000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S25000x1_S800000x1_S800000x1_1_0_n_n_0_1_11 : GatherDims S25000x1 S800000x1 S800000x1 where
  offsetDims := [1]
  collapsedSliceDims := [0]
  operandBatchingDims := []
  startIndicesBatchingDims := []
  startIndexMap := [0]
  indexVectorDim := 1
  sliceSizes := ![1, 1]
  wf := gather_S25000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57_0) S5000x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S25000x128 : Shape := ⟨2, ![25000, 128]⟩
abbrev S25000 : Shape := ⟨1, ![25000]⟩
abbrev S25000x1 : Shape := ⟨2, ![25000, 1]⟩
abbrev S100000 : Shape := ⟨1, ![100000]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x1, .f32⟩
  | 4 => ⟨S1, .f32⟩
  | 5 => ⟨S800000, .i32⟩
  | 6 => ⟨S800000, .i32⟩
  | 7 => ⟨S100000x128, .f32⟩
  | 8 => ⟨S1x128, .f32⟩
  | 9 => ⟨S100000x128, .f32⟩
  | 10 => ⟨S100000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S25000x128, .f32⟩
  | 22 => ⟨S800000x1, .i32⟩
  | 23 => ⟨S25000x128, .f32⟩
  | 24 => ⟨S_, .f32⟩
  | 25 => ⟨S800000, .f32⟩
  | 26 => ⟨S_, .f32⟩
  | 27 => ⟨S25000, .f32⟩
  | 28 => ⟨S800000x1, .i32⟩
  | 29 => ⟨S25000, .f32⟩
  | 30 => ⟨S_, .f32⟩
  | 31 => ⟨S25000, .f32⟩
  | 32 => ⟨S25000, .f32⟩
  | 33 => ⟨S25000x1, .f32⟩
  | 34 => ⟨S25000x128, .f32⟩
  | 35 => ⟨S25000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S25000x128, .f32⟩
  | 72 => ⟨S800000x1, .i32⟩
  | 73 => ⟨S25000x128, .f32⟩
  | 74 => ⟨S_, .f32⟩
  | 75 => ⟨S800000, .f32⟩
  | 76 => ⟨S_, .f32⟩
  | 77 => ⟨S25000, .f32⟩
  | 78 => ⟨S800000x1, .i32⟩
  | 79 => ⟨S25000, .f32⟩
  | 80 => ⟨S_, .f32⟩
  | 81 => ⟨S25000, .f32⟩
  | 82 => ⟨S25000, .f32⟩
  | 83 => ⟨S25000x1, .f32⟩
  | 84 => ⟨S25000x128, .f32⟩
  | 85 => ⟨S25000x128, .f32⟩
  | 86 => ⟨S25000x1, .f32⟩
  | 87 => ⟨S1x1, .f32⟩
  | 88 => ⟨S25000x1, .f32⟩
  | 89 => ⟨S25000x1, .f32⟩
  | 90 => ⟨S25000x1, .f32⟩
  | 91 => ⟨S25000x1, .f32⟩
  | 92 => ⟨S_, .f32⟩
  | 93 => ⟨S25000x1, .f32⟩
  | 94 => ⟨S25000x1, .f32⟩
  | 95 => ⟨S_, .f32⟩
  | 96 => ⟨S25000x1, .f32⟩
  | 97 => ⟨S25000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x1, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x128, .f32⟩
  | 117 => ⟨S800000x128, .f32⟩
  | 118 => ⟨S_, .f32⟩
  | 119 => ⟨S100000x128, .f32⟩
  | 120 => ⟨S800000x1, .i32⟩
  | 121 => ⟨S100000x128, .f32⟩
  | 122 => ⟨S_, .f32⟩
  | 123 => ⟨S100000x1, .f32⟩
  | 124 => ⟨S800000x1, .i32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_c_18 : Ref sig .tc := ⟨.hbm, 98, rfl⟩
abbrev main_v71 : Ref sig .tc := ⟨.hbm, 99, rfl⟩
abbrev main_v72 : Ref sig .tc := ⟨.hbm, 100, rfl⟩
abbrev main_c_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_20 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  bcast_S_S25000x1 : S_.BroadcastsInDim S25000x1 (![] : Fin 0 → Fin S25000x1.rank)
  bcast_S800000x1_S800000x128_0_1 : S800000x1.BroadcastsInDim S800000x128 (![0, 1] : Fin 2 → Fin S800000x128.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  scatter_S25000_S800000x1_S800000_n_0_0_1_wf : ScatterDims.WF S25000 S800000x1 S800000 [] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S25000x128_S128x1_S25000x1_1_0_0_1_n_n_wf : DotDims.WF S25000x128 S128x1 S25000x1 [1] [0] [0] [1] [] []
  gather_S25000x1_S800000x1_S800000x1_1_0_n_n_0_1_11_wf : GatherDims.WF S25000x1 S800000x1 S800000x1 [1] [0] [] [0] [] 1 ![1, 1]
  scatter_S100000x1_S800000x1_S800000x1_1_0_0_1_wf : ScatterDims.WF S100000x1 S800000x1 S800000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S25000x128_S128x1_S25000x1_1_0_0_1_n_n : DotDims S25000x128 S128x1 S25000x1 where
  lhsContracting := [1]
  rhsContracting := [0]
  lhsNonContracting := [0]
  rhsNonContracting := [1]
  lhsBatch := []
  rhsBatch := []
  wf := dot_S25000x128_S128x1_S25000x1_1_0_0_1_n_n_wf
def gather_S25000x1_S800000x1_S800000x1_1_0_n_n_0_1_11 : GatherDims S25000x1 S800000x1 S800000x1 where
  offsetDims := [1]
  collapsedSliceDims := [0]
  operandBatchingDims := []
  startIndicesBatchingDims := []
  startIndexMap := [0]
  indexVectorDim := 1
  sliceSizes := ![1, 1]
  wf := gather_S25000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf

class Facts : Prop extends Facts₀ where

variable [Facts]
-- ==== Proof.Stages.lean ====
/-
  The stages of the computation, as functions of whole arrays on the extended reals.

  N = 100000 nodes, E = 25000 hyperedges, 800000 incidences (a node word and an edge word each), D = 128.
  A table of node rows is averaged over each hyperedge's incidences, a table of edge rows over each
  node's incidences. One side multiplies each row sum by the reciprocal 1 / max(count, 1), the other
  divides it by max(count, 1): `smoothMul` and `smoothDiv` below. The counts are sums of ones, so
  max(count, 1) is a real number not below 1 and the two agree on every extended real (Laws.lean).
  Then the attention weight of an edge row f is w = logistic(f · a + b), the weighted rows are w · f,
  both are gathered along the incidences and summed per node (`num`, `den`), and the result is
  num / max(den, ε).
-/
import proofs.«163240_j34883724378624_2_alg».proof.Proof.Gen.ReferenceIdeal
import Idealize.ShloMosaic.Lib.ValueIdx
import Idealize.ShloMosaic.PureOps.Ideal.Laws

noncomputable section

open scoped BigOperators

namespace Cert.Stages

open Cert.ReferenceIdeal Cert.ReferenceIdeal.Gen Idealize.ShloMosaic Idealize.ShloMosaic.ValueIdx

/-- A float array of shape `s` on the extended reals. -/
abbrev Arr (s : Shape) := FVec Ideal s .f32
/-- The incidence words. -/
abbrev Words := IVec S800000 32

/-! ## The splats and the incidence columns -/

def zeroOf (s : Shape) (h : S_.BroadcastsInDim s (![] : Fin 0 → Fin s.rank)) : Arr s :=
  broadcastInDim s ![] h (constant (F := Ideal) S_ .f32 0x00000000#32)
def oneOf (s : Shape) (h : S_.BroadcastsInDim s (![] : Fin 0 → Fin s.rank)) : Arr s :=
  broadcastInDim s ![] h (constant (F := Ideal) S_ .f32 0x3F800000#32)

/-- The words as a column of row numbers. -/
def col (v : Words) : IVec S800000x1 32 :=
  broadcastInDim S800000x1 ![0] bcast_S800000_S800000x1_0 v

/-- A negative word is taken from the end of an axis of extent `k`. -/
def wrap (k : BitVec 32) (v : Words) : Words :=
  select (cmpi .slt v (broadcastInDim S800000 ![] bcast_S_S800000 (constantI S_ 32 0#32)))
    (addi v (broadcastInDim S800000 ![] bcast_S_S800000 (constantI S_ 32 k))) v

/-! ## Counts -/

/-- How many incidences name each hyperedge. -/
def cntE (e : Words) : Arr S25000 :=
  Host.scatterAdd scatter_S25000_S800000x1_S800000_n_0_0_1 (zeroOf S25000 bcast_S_S25000) (col e) (oneOf S800000 bcast_S_S800000)
/-- How many incidences name each node. -/
def cntN (n : Words) : Arr S100000 :=
  Host.scatterAdd scatter_S100000_S800000x1_S800000_n_0_0_1 (zeroOf S100000 bcast_S_S100000) (col n) (oneOf S800000 bcast_S_S800000)

def maxE (e : Words) : Arr S25000 := maximumf (cntE e) (oneOf S25000 bcast_S_S25000)
def maxN (n : Words) : Arr S100000 := maximumf (cntN n) (oneOf S100000 bcast_S_S100000)
def invE (e : Words) : Arr S25000 := Host.divf (oneOf S25000 bcast_S_S25000) (maxE e)
def invN (n : Words) : Arr S100000 := Host.divf (oneOf S100000 bcast_S_S100000) (maxN n)

/-- A per-edge number spread over the edge's row. -/
def spreadE (v : Arr S25000) : Arr S25000x128 :=
  broadcastInDim S25000x128 ![0, 1] bcast_S25000x1_S25000x128_0_1 (broadcastInDim S25000x1 ![0] bcast_S25000_S25000x1_0 v)
/-- A per-node number spread over the node's row. -/
def spreadN (v : Arr S100000) : Arr S100000x128 :=
  broadcastInDim S100000x128 ![0, 1] bcast_S100000x1_S100000x128_0_1 (broadcastInDim S100000x1 ![0] bcast_S100000_S100000x1_0 v)

/-! ## Row sums along the incidences -/

/-- Each hyperedge's sum of the node rows of its incidences. -/
def toEdges (h : Arr S100000x128) (n e : Words) : Arr S25000x128 :=
  Host.scatterAdd scatter_S25000x128_S800000x1_S800000x128_1_0_0_1 (zeroOf S25000x128 bcast_S_S25000x128) (col e)
    (Host.gather gather_S100000x128_S800000x1_S800000x128_1_0_n_n_0_1_1128 h (col (wrap 100000#32 n)))
/-- Each node's sum of the edge rows of its incidences. -/
def toNodes (f : Arr S25000x128) (n e : Words) : Arr S100000x128 :=
  Host.scatterAdd scatter_S100000x128_S800000x1_S800000x128_1_0_0_1 (zeroOf S100000x128 bcast_S_S100000x128) (col n)
    (Host.gather gather_S25000x128_S800000x1_S800000x128_1_0_n_n_0_1_1128 f (col (wrap 25000#32 e)))

/-- Node rows → edge means → node means → edge means, each mean a product with the reciprocal count. -/
def smoothMul (h : Arr S100000x128) (n e : Words) : Arr S25000x128 :=
  mulf (toEdges (mulf (toNodes (mulf (toEdges h n e) (spreadE (invE e))) n e) (spreadN (invN n))) n e) (spreadE (invE e))
/-- The same with each mean a quotient by the count. -/
def smoothDiv (h : Arr S100000x128) (n e : Words) : Arr S25000x128 :=
  Host.divf (toEdges (Host.divf (toNodes (Host.divf (toEdges h n e) (spreadE (maxE e))) n e) (spreadN (maxN n))) n e) (spreadE (maxE e))

/-! ## The attention-weighted sums per node -/

/-- Per node, the sum over its incidences of the rows of an edge table `g`. -/
def numOf (g : Arr S25000x128) (n e : Words) : Arr S100000x128 :=
  Host.scatterAdd scatter_S100000x128_S800000x1_S800000x128_1_0_0_1 (zeroOf S100000x128 bcast_S_S100000x128) (col n)
    (Host.gather gather_S25000x128_S800000x1_S800000x128_1_0_n_n_0_1_1128 g (col (wrap 25000#32 e)))
/-- The edge weights along the incidences. -/
def pairW (w : Arr S25000x1) (e : Words) : Arr S800000x1 :=
  Host.gather gather_S25000x1_S800000x1_S800000x1_1_0_n_n_0_1_11 w (col (wrap 25000#32 e))
/-- Per node, the sum over its incidences of the edge weights. -/
def denOf (w : Arr S25000x1) (n e : Words) : Arr S100000x1 :=
  Host.scatterAdd scatter_S100000x1_S800000x1_S800000x1_1_0_0_1 (zeroOf S100000x1 bcast_S_S100000x1) (col n) (pairW w e)

/-! ## The three dense stages, entry by entry -/

/-- Row `p` of x times column `q` of θ, plus the bias at `q`. -/
def linAt (x : Arr S100000x128) (θ : Arr S128x128) (b : Arr S1x128) (p : Fin 100000) (q : Fin 128) : EReal :=
  (∑ k : Fin 128, x (ix2 p k) * θ (ix2 k q)) + b (ix2 (0 : Fin 1) q)
/-- The projected node rows x · θ + b. -/
def lin (x : Arr S100000x128) (θ : Arr S128x128) (b : Arr S1x128) : Arr S100000x128 :=
  fun i => linAt x θ b (i 0) (i 1)

/-- The attention logit of edge row `p`: the row times the attention vector, plus the attention bias. -/
def logitAt (f : Arr S25000x128) (a : Arr S128x1) (b : Arr S1x1) (p : Fin 25000) : EReal :=
  (∑ k : Fin 128, f (ix2 p k) * a (ix2 k (0 : Fin 1))) + b (ix2 (0 : Fin 1) (0 : Fin 1))
/-- The edge weights logistic(f · a + b). -/
def attW (f : Arr S25000x128) (a : Arr S128x1) (b : Arr S1x1) : Arr S25000x1 :=
  fun i => Ideal.logistic (logitAt f a b (i 0))
/-- The weighted edge rows w · f. -/
def attWE (f : Arr S25000x128) (a : Arr S128x1) (b : Arr S1x1) : Arr S25000x128 :=
  fun i => Ideal.logistic (logitAt f a b (i 0)) * f (ix2 (i 0) (i 1))

/-- num / max(den, ε), each node's row divided by its own denominator. -/
def ratio (num : Arr S100000x128) (den : Arr S100000x1) : Arr S100000x128 :=
  fun i => Ideal.div (num (ix2 (i 0) (i 1))) (max (den (ix2 (i 0) (0 : Fin 1))) (Ideal.ofBits .f32 0x2B8CBCCC#32))

end Cert.Stages

end
-- ==== Proof.KHost.lean ====
/-
  What the host operations between the three kernel launches compute, as functions of the buffers they read.

  Stated over an ARBITRARY valuation of the buffers: the first stretch reshapes the bias to one row; the second
  turns the projected node rows into the twice-smoothed edge rows (each mean a product with the reciprocal count)
  and reshapes the attention bias to one entry; the third gathers the weighted edge rows and the edge weights
  along the incidences and sums them per node. No stretch writes an argument.
-/
import proofs.«163240_j34883724378624_2_alg».proof.Proof.Gen.KernelIdeal.Launch
import proofs.«163240_j34883724378624_2_alg».proof.Proof.Stages
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable (W : Valuation τ sig (Elt Ideal))

/-- The bias as one row. -/
theorem bias_row : StableHlo.after (hostOps0 (F := Ideal)) W (Proc.devRef .tc main_v0)
    = shapeCast S1x128 (W (Proc.devRef .tc main_arg2)) shapeCasts_S128_S1x128 := by
  after_results; rfl

/-- The edge rows the attention kernel reads: node rows → edge means → node means → edge means. -/
theorem edge_rows : StableHlo.after (hostOps1 (F := Ideal)) W (Proc.devRef .tc main_v55)
    = Cert.Stages.smoothMul (W (Proc.devRef .tc main_v1)) (W (Proc.devRef .tc main_arg5)) (W (Proc.devRef .tc main_arg6)) := by
  after_results_simp; rfl

/-- The attention bias as one entry. -/
theorem att_bias : StableHlo.after (hostOps1 (F := Ideal)) W (Proc.devRef .tc main_v56)
    = shapeCast S1x1 (W (Proc.devRef .tc main_arg4)) shapeCasts_S1_S1x1 := by
  after_results_simp; rfl

/-- The numerator: per node, the sum of the weighted edge rows of its incidences. -/
theorem num : StableHlo.after (hostOps2 (F := Ideal)) W (Proc.devRef .tc main_v67)
    = Cert.Stages.numOf (W (Proc.devRef .tc main_v57_1)) (W (Proc.devRef .tc main_arg5)) (W (Proc.devRef .tc main_arg6)) := by
  after_results_simp; rfl

/-- The denominator: per node, the sum of the edge weights of its incidences. -/
theorem den : StableHlo.after (hostOps2 (F := Ideal)) W (Proc.devRef .tc main_v77)
    = Cert.Stages.denOf (W (Proc.devRef .tc main_v57_0)) (W (Proc.devRef .tc main_arg5)) (W (Proc.devRef .tc main_arg6)) := by
  after_results_simp; rfl

/-! ## No stretch writes an argument -/

theorem keep0_arg0 : StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg1 : StableHlo.after (hostOps0 (F := Ideal)) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg3 : StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg4 : StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg5 : StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg6 : StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg3 : StableHlo.after (hostOps1 (F := Ideal)) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg5 : StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg6 : StableHlo.after (hostOps1 (F := Ideal)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostVal

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KLinear.lean ====
/-
  The first kernel launch, read as one whole-array function.

  The grid has 20 points; point t handles the node rows 5000·t … 5000·t + 4999. Its x block is those rows, its θ
  and bias blocks are the whole arrays, and the block it writes back holds, at (a, q), row a of the x block times
  column q of θ plus the bias at q. Rows of different points do not overlap and together they are all 100000
  rows, so after the launch the output array is x · θ + b at every entry.
-/
import proofs.«163240_j34883724378624_2_alg».proof.Proof.Gen.KernelIdeal.Frame
import proofs.«163240_j34883724378624_2_alg».proof.Proof.Stages
import proofs.«163240_j34883724378624_2_alg».proof.Proof.LibPlainDot
import Idealize.ShloMosaic.Lib.Pipeline.Value
import Idealize.ShloMosaic.Lib.ValueLayout

set_option maxRecDepth 16384

noncomputable section

open scoped BigOperators

namespace Cert.KernelIdeal.Linear

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (a, q) of its block: row a of the x block times column q of θ, plus the bias at q. The
    changes of float format are the identity on the extended reals. -/
theorem payload_at (x0 : Vec Ideal S5000x128 .f32) (x1 : Vec Ideal S128x128 .f32) (x2 : Vec Ideal S1x128 .f32)
    (a : Fin 5000) (q : Fin 128) :
    k0_pay1 x0 x1 x2 (ix2 a q) = (∑ k : Fin 128, x0 (ix2 a k) * x1 (ix2 k q)) + x2 (ix2 (0 : Fin 1) q) := by
  unfold k0_pay1
  show (FloatOps.matmul (F := Ideal) dot_S5000x128_S128x128_S5000x128_1_0_0_1_n_n none (truncf .bf16 x0 bitsLt_bf16_f32) (truncf .bf16 x1 bitsLt_bf16_f32)
      (constant (F := Ideal) S5000x128 .f32 0x00000000#32) (ix2 a q) : EReal)
    + (broadcastTo S5000x128 (shapeCast S1x128 x2 shapeCasts_S1x128_S1x128) broadcasts_S1x128_S5000x128 (ix2 a q) : EReal) = _
  have hd : dot_S5000x128_S128x128_S5000x128_1_0_0_1_n_n = DotDims.plain 5000 128 128 := rfl
  refine congrArg₂ (· + ·) ?_ ?_
  · rw [hd]
    exact PlainDot.matmul_zero_apply 5000 128 128 none _ _ a q
  · rw [shapeCast_self]
    exact broadcastTo_1b_ab_apply _ _ a q

/-- Where the windows' blocks sit at point t: x and the output at block row t, θ and the bias at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 20 := lt_of_lt_of_eq t.isLt N_0

/-- The node row that row a of point t's block is. -/
def row (t : Fin cfg0.N) (a : Fin 5000) : Fin 100000 := ⟨5000 * t.val + a.val, by have := lt_N t; have := a.isLt; omega⟩

theorem emb_x (t : Fin cfg0.N) (a : Fin 5000) (k : Fin 128) : ((cfg0.win 0).blk t).view.emb (ix2 a k) = ix2 (row t a) k := by
  obtain ⟨e0, e1, -⟩ := idx_facts t
  funext d; apply Fin.ext
  match d with
  | ⟨0, _⟩ => show win0_0.index t (0 : Fin 2) * 5000 + 1 * a.val = 5000 * t.val + a.val; omega
  | ⟨1, _⟩ => show win0_0.index t (1 : Fin 2) * 128 + 1 * k.val = k.val; omega

theorem emb_theta (t : Fin cfg0.N) (k q : Fin 128) : ((cfg0.win 1).blk t).view.emb (ix2 k q) = ix2 k q := by
  obtain ⟨-, -, e2, e3, -⟩ := idx_facts t
  funext d; apply Fin.ext
  match d with
  | ⟨0, _⟩ => show win0_1.index t (0 : Fin 2) * 128 + 1 * k.val = k.val; omega
  | ⟨1, _⟩ => show win0_1.index t (1 : Fin 2) * 128 + 1 * q.val = q.val; omega

theorem emb_bias (t : Fin cfg0.N) (u : Fin 1) (q : Fin 128) : ((cfg0.win 2).blk t).view.emb (ix2 u q) = ix2 u q := by
  obtain ⟨-, -, -, -, e4, e5, -⟩ := idx_facts t
  funext d; apply Fin.ext
  match d with
  | ⟨0, _⟩ => show win0_2.index t (0 : Fin 2) * 1 + 1 * u.val = u.val; omega
  | ⟨1, _⟩ => show win0_2.index t (1 : Fin 2) * 128 + 1 * q.val = q.val; omega

theorem emb_out (t : Fin cfg0.N) (a : Fin 5000) (q : Fin 128) : ((cfg0.win 3).blk t).view.emb (ix2 a q) = ix2 (row t a) q := by
  obtain ⟨-, -, -, -, -, -, e6, e7⟩ := idx_facts t
  funext d; apply Fin.ext
  match d with
  | ⟨0, _⟩ => show win0_3.index t (0 : Fin 2) * 5000 + 1 * a.val = 5000 * t.val + a.val; omega
  | ⟨1, _⟩ => show win0_3.index t (1 : Fin 2) * 128 + 1 * q.val = q.val; omega

/-- The body's value at (a, q) when its blocks are the rows of point t: the entry of x · θ + b at that node row. -/
theorem block_value (A0 : Cert.Stages.Arr S100000x128) (A1 : Cert.Stages.Arr S128x128) (A2 : Cert.Stages.Arr S1x128)
    (t : Fin cfg0.N) (a : Fin 5000) (q : Fin 128)
    (x0 : Vec Ideal S5000x128 .f32) (x1 : Vec Ideal S128x128 .f32) (x2 : Vec Ideal S1x128 .f32)
    (h0 : ∀ k : Fin 128, x0 (ix2 a k) = A0 (ix2 (row t a) k)) (h1 : ∀ k : Fin 128, x1 (ix2 k q) = A1 (ix2 k q))
    (h2 : x2 (ix2 (0 : Fin 1) q) = A2 (ix2 (0 : Fin 1) q)) :
    k0_pay1 x0 x1 x2 (ix2 a q) = Cert.Stages.lin A0 A1 A2 (ix2 (row t a) q) := by
  rw [payload_at]
  simp only [h0, h1, h2]
  rfl

/-- What point t writes back is block t of x · θ + b of the arrays as the launch finds them. -/
theorem flushed_eq (c : Dev nD) (t : Fin cfg0.N) :
    (dat0 (F := Ideal) V c).flushed 3 t
      = ((cfg0.win 3).blk t).view.read (Elt Ideal) (Cert.Stages.lin (V c main_arg0) (V c main_arg1) (V c main_v0)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S1x128) hz]
  funext y
  obtain ⟨a, q, rfl⟩ : ∃ (a : Fin 5000) (q : Fin 128), y = ix2 a q := ⟨y 0, y 1, eq_ix2 y⟩
  refine (block_value (V c main_arg0) (V c main_arg1) (V c main_v0) t a q (iblk0 V c 0 t) (iblk0 V c 1 t) (iblk0 V c 2 t)
    (fun k => congrArg (V c main_arg0) (emb_x t a k)) (fun k => congrArg (V c main_arg1) (emb_theta t k q))
    (congrArg (V c main_v0) (emb_bias t 0 q))).trans ?_
  exact (congrArg (Cert.Stages.lin (V c main_arg0) (V c main_arg1) (V c main_v0)) (emb_out t a q)).symm

theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every entry of the output lies in the block of the point its row belongs to. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, -, -, e6, e7⟩ := idx_facts ⟨(i 0).val / 5000, hN⟩
  have e6' : win0_3.index ⟨(i 0).val / 5000, hN⟩ (0 : Fin 2) = (i 0).val / 5000 := e6
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e6']; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e7]; omega

/-- After the launch the output array is x · θ + b of the arrays as the launch finds them. -/
theorem array_eq (c : Dev nD) :
    (dat0 (F := Ideal) V c).arrAt 3 cfg0.N = Cert.Stages.lin (V c main_arg0) (V c main_arg1) (V c main_v0) :=
  (dat0 (F := Ideal) V c).arrAt_eq_of_cover 3 _ (fun t _ => flushed_eq V c t) cover

end Cert.KernelIdeal.Linear

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KAttn.lean ====
/-
  The second kernel launch, read as two whole-array functions.

  The grid has 5 points; point t handles the edge rows 5000·t … 5000·t + 4999. From its block f of edge rows, the
  whole attention vector a and the attention bias b it writes back the weights logistic(f · a + b), one per row, and
  the weighted rows: each row of f times its own weight. The points' rows partition the 25000 edge rows, so after the
  launch the two output arrays are those two functions of the whole edge table.
-/
import proofs.«163240_j34883724378624_2_alg».proof.Proof.Gen.KernelIdeal.Frame
import proofs.«163240_j34883724378624_2_alg».proof.Proof.Stages
import proofs.«163240_j34883724378624_2_alg».proof.Proof.LibPlainDot
import proofs.«163240_j34883724378624_2_alg».proof.Proof.LibKeepdims
import Idealize.ShloMosaic.Lib.Pipeline.Value
import Idealize.ShloMosaic.Lib.ValueLayout

set_option maxRecDepth 16384

noncomputable section

open scoped BigOperators

namespace Cert.KernelIdeal.Attn

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The weight the body computes for row a of its block. -/
theorem payload_w_at (x0 : Vec Ideal S5000x128 .f32) (x1 : Vec Ideal S128x1 .f32) (x2 : Vec Ideal S1x1 .f32) (a : Fin 5000) :
    k1_pay1 x0 x1 x2 (ix2 a (0 : Fin 1))
      = Ideal.logistic ((∑ k : Fin 128, x0 (ix2 a k) * x1 (ix2 k (0 : Fin 1))) + x2 (ix2 (0 : Fin 1) (0 : Fin 1))) := by
  unfold k1_pay1
  show Ideal.logistic ((FloatOps.matmul (F := Ideal) dot_S5000x128_S128x1_S5000x1_1_0_0_1_n_n none
        (truncf .bf16 (shapeCast S5000x128 x0 shapeCasts_S5000x128_S5000x128) bitsLt_bf16_f32) (truncf .bf16 x1 bitsLt_bf16_f32)
        (constant (F := Ideal) S5000x1 .f32 0x00000000#32) (ix2 a (0 : Fin 1)) : EReal)
      + (broadcastTo S5000x1 (shapeCast S1x1 x2 shapeCasts_S1x1_S1x1) broadcasts_S1x1_S5000x1 (ix2 a (0 : Fin 1)) : EReal)) = _
  have hd : dot_S5000x128_S128x1_S5000x1_1_0_0_1_n_n = DotDims.plain 5000 128 1 := rfl
  refine congrArg Ideal.logistic (congrArg₂ (· + ·) ?_ ?_)
  · rw [hd, shapeCast_self]
    exact PlainDot.matmul_zero_apply 5000 128 1 none _ _ a 0
  · rw [shapeCast_self]
    exact broadcastTo_1b_ab_apply _ _ a 0

/-- The weighted row entry the body computes: the row's weight times the entry. -/
theorem payload_we_at (x0 : Vec Ideal S5000x128 .f32) (x1 : Vec Ideal S128x1 .f32) (x2 : Vec Ideal S1x1 .f32)
    (x3 : Vec Ideal S5000x128 .f32) (a : Fin 5000) (q : Fin 128) :
    k1_pay2 x0 x1 x2 x3 (ix2 a q) = k1_pay1 x0 x1 x2 (ix2 a (0 : Fin 1)) * x3 (ix2 a q) := by
  unfold k1_pay2
  show (broadcastTo S5000x128 (k1_pay1 x0 x1 x2) broadcasts_S5000x1_S5000x128 (ix2 a q) : EReal)
      * (shapeCast S5000x128 x3 shapeCasts_S5000x128_S5000x128 (ix2 a q) : EReal) = _
  refine congrArg₂ (· * ·) (Cert.LibKeepdims.broadcastTo_a1_ab_apply (a := 5000) (b := 128) _ _ a q) ?_
  rw [shapeCast_self]

/-- Where the windows' blocks sit at point t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem lt_N (t : Fin cfg1.N) : t.val < 5 := lt_of_lt_of_eq t.isLt N_1

/-- The edge row that row a of point t's block is. -/
def row (t : Fin cfg1.N) (a : Fin 5000) : Fin 25000 := ⟨5000 * t.val + a.val, by have := lt_N t; have := a.isLt; omega⟩

theorem emb_f (t : Fin cfg1.N) (a : Fin 5000) (b : Fin 128) : ((cfg1.win 0).blk t).view.emb (ix2 a b) = ix2 (row t a) b := by
  have hf := idx_facts t
  funext d; apply Fin.ext
  match d with
  | ⟨0, _⟩ => show win1_0.index t (0 : Fin 2) * 5000 + 1 * a.val = 5000 * t.val + a.val; omega
  | ⟨1, _⟩ => show win1_0.index t (1 : Fin 2) * 128 + 1 * b.val = b.val; omega
theorem emb_a (t : Fin cfg1.N) (a : Fin 128) (b : Fin 1) : ((cfg1.win 1).blk t).view.emb (ix2 a b) = ix2 a b := by
  have hf := idx_facts t
  funext d; apply Fin.ext
  match d with
  | ⟨0, _⟩ => show win1_1.index t (0 : Fin 2) * 128 + 1 * a.val = a.val; omega
  | ⟨1, _⟩ => show win1_1.index t (1 : Fin 2) * 1 + 1 * b.val = b.val; omega
theorem emb_b (t : Fin cfg1.N) (a : Fin 1) (b : Fin 1) : ((cfg1.win 2).blk t).view.emb (ix2 a b) = ix2 a b := by
  have hf := idx_facts t
  funext d; apply Fin.ext
  match d with
  | ⟨0, _⟩ => show win1_2.index t (0 : Fin 2) * 1 + 1 * a.val = a.val; omega
  | ⟨1, _⟩ => show win1_2.index t (1 : Fin 2) * 1 + 1 * b.val = b.val; omega
theorem emb_w (t : Fin cfg1.N) (a : Fin 5000) (b : Fin 1) : ((cfg1.win 3).blk t).view.emb (ix2 a b) = ix2 (row t a) b := by
  have hf := idx_facts t
  funext d; apply Fin.ext
  match d with
  | ⟨0, _⟩ => show win1_3.index t (0 : Fin 2) * 5000 + 1 * a.val = 5000 * t.val + a.val; omega
  | ⟨1, _⟩ => show win1_3.index t (1 : Fin 2) * 1 + 1 * b.val = b.val; omega
theorem emb_we (t : Fin cfg1.N) (a : Fin 5000) (b : Fin 128) : ((cfg1.win 4).blk t).view.emb (ix2 a b) = ix2 (row t a) b := by
  have hf := idx_facts t
  funext d; apply Fin.ext
  match d with
  | ⟨0, _⟩ => show win1_4.index t (0 : Fin 2) * 5000 + 1 * a.val = 5000 * t.val + a.val; omega
  | ⟨1, _⟩ => show win1_4.index t (1 : Fin 2) * 128 + 1 * b.val = b.val; omega

/-- The weight of row a when the blocks are the rows of point t: the weight of that edge row. -/
theorem block_w (A0 : Cert.Stages.Arr S25000x128) (A1 : Cert.Stages.Arr S128x1) (A2 : Cert.Stages.Arr S1x1)
    (t : Fin cfg1.N) (a : Fin 5000)
    (x0 : Vec Ideal S5000x128 .f32) (x1 : Vec Ideal S128x1 .f32) (x2 : Vec Ideal S1x1 .f32)
    (h0 : ∀ k : Fin 128, x0 (ix2 a k) = A0 (ix2 (row t a) k)) (h1 : ∀ k : Fin 128, x1 (ix2 k (0 : Fin 1)) = A1 (ix2 k (0 : Fin 1)))
    (h2 : x2 (ix2 (0 : Fin 1) (0 : Fin 1)) = A2 (ix2 (0 : Fin 1) (0 : Fin 1))) :
    k1_pay1 x0 x1 x2 (ix2 a (0 : Fin 1)) = Cert.Stages.attW A0 A1 A2 (ix2 (row t a) (0 : Fin 1)) := by
  rw [payload_w_at]
  simp only [h0, h1, h2]
  rfl

theorem block_we (A0 : Cert.Stages.Arr S25000x128) (A1 : Cert.Stages.Arr S128x1) (A2 : Cert.Stages.Arr S1x1)
    (t : Fin cfg1.N) (a : Fin 5000) (q : Fin 128)
    (x0 : Vec Ideal S5000x128 .f32) (x1 : Vec Ideal S128x1 .f32) (x2 : Vec Ideal S1x1 .f32) (x3 : Vec Ideal S5000x128 .f32)
    (h0 : ∀ k : Fin 128, x0 (ix2 a k) = A0 (ix2 (row t a) k)) (h1 : ∀ k : Fin 128, x1 (ix2 k (0 : Fin 1)) = A1 (ix2 k (0 : Fin 1)))
    (h2 : x2 (ix2 (0 : Fin 1) (0 : Fin 1)) = A2 (ix2 (0 : Fin 1) (0 : Fin 1))) (h3 : x3 (ix2 a q) = A0 (ix2 (row t a) q)) :
    k1_pay2 x0 x1 x2 x3 (ix2 a q) = Cert.Stages.attWE A0 A1 A2 (ix2 (row t a) q) := by
  rw [payload_we_at, payload_w_at]
  simp only [h0, h1, h2, h3]
  rfl

/-- What point t writes back to the weights is block t of logistic(f · a + b). -/
theorem flushed_w (c : Dev nD) (t : Fin cfg1.N) :
    (dat1 (F := Ideal) V c).flushed 3 t
      = ((cfg1.win 3).blk t).view.read (Elt Ideal) (Cert.Stages.attW (V c main_v55) (V c main_arg3) (V c main_v56)) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x1) hz, View.ld_unit_zero (S := S1x1) hz]
  funext y
  obtain ⟨a, u, rfl⟩ : ∃ (a : Fin 5000) (u : Fin 1), y = ix2 a u := ⟨y 0, y 1, eq_ix2 y⟩
  obtain rfl : u = 0 := Subsingleton.elim u 0
  refine (block_w (V c main_v55) (V c main_arg3) (V c main_v56) t a (iblk1 V c 0 t) (iblk1 V c 1 t) (iblk1 V c 2 t)
    (fun k => congrArg (V c main_v55) (emb_f t a k)) (fun k => congrArg (V c main_arg3) (emb_a t k 0))
    (congrArg (V c main_v56) (emb_b t 0 0))).trans ?_
  exact (congrArg (Cert.Stages.attW (V c main_v55) (V c main_arg3) (V c main_v56)) (emb_w t a 0)).symm

/-- What point t writes back to the weighted rows is block t of w · f. -/
theorem flushed_we (c : Dev nD) (t : Fin cfg1.N) :
    (dat1 (F := Ideal) V c).flushed 4 t
      = ((cfg1.win 4).blk t).view.read (Elt Ideal) (Cert.Stages.attWE (V c main_v55) (V c main_arg3) (V c main_v56)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S128x1) hz, View.ld_unit_zero (S := S1x1) hz]
  funext y
  obtain ⟨a, q, rfl⟩ : ∃ (a : Fin 5000) (q : Fin 128), y = ix2 a q := ⟨y 0, y 1, eq_ix2 y⟩
  refine (block_we (V c main_v55) (V c main_arg3) (V c main_v56) t a q (iblk1 V c 0 t) (iblk1 V c 1 t) (iblk1 V c 2 t) (iblk1 V c 0 t)
    (fun k => congrArg (V c main_v55) (emb_f t a k)) (fun k => congrArg (V c main_arg3) (emb_a t k 0))
    (congrArg (V c main_v56) (emb_b t 0 0)) (congrArg (V c main_v55) (emb_f t a q))).trans ?_
  exact (congrArg (Cert.Stages.attWE (V c main_v55) (V c main_arg3) (V c main_v56)) (emb_we t a q)).symm

theorem mem_blk_w (t : Fin cfg1.N) (i : S25000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v57_0).slice (win1_3.rect t)).set ↔ _
  rw [View.set_slice_whole, Rect.mem_set_unit]
  exact Iff.rfl
theorem mem_blk_we (t : Fin cfg1.N) (i : S25000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v57_1).slice (win1_4.rect t)).set ↔ _
  rw [View.set_slice_whole, Rect.mem_set_unit]
  exact Iff.rfl
theorem cover_w (i : S25000x1.Idx) : ∃ t : Fin cfg1.N, (cfg1.win 3).flush t = true ∧ i ∈ ((cfg1.win 3).blk t).view.set := by
  have hi0 : (i 0).val < 25000 := (i 0).isLt
  have hi1 : (i 1).val < 1 := (i 1).isLt
  have hN : (i 0).val / 5000 < cfg1.N := by show _ < grid1.N; rw [N_1]; omega
  have hf := idx_facts ⟨(i 0).val / 5000, hN⟩
  have hv : (⟨(i 0).val / 5000, hN⟩ : Fin cfg1.N).val = (i 0).val / 5000 := rfl
  refine ⟨⟨(i 0).val / 5000, hN⟩, flush1_3 _, ?_⟩
  rw [mem_blk_w]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    omega
  | ⟨1, _⟩ =>
    show win1_3.index ⟨(i 0).val / 5000, hN⟩ (1 : Fin 2) * 1 ≤ (i 1).val ∧ (i 1).val < win1_3.index ⟨(i 0).val / 5000, hN⟩ (1 : Fin 2) * 1 + 1
    omega
theorem cover_we (i : S25000x128.Idx) : ∃ t : Fin cfg1.N, (cfg1.win 4).flush t = true ∧ i ∈ ((cfg1.win 4).blk t).view.set := by
  have hi0 : (i 0).val < 25000 := (i 0).isLt
  have hi1 : (i 1).val < 128 := (i 1).isLt
  have hN : (i 0).val / 5000 < cfg1.N := by show _ < grid1.N; rw [N_1]; omega
  have hf := idx_facts ⟨(i 0).val / 5000, hN⟩
  have hv : (⟨(i 0).val / 5000, hN⟩ : Fin cfg1.N).val = (i 0).val / 5000 := rfl
  refine ⟨⟨(i 0).val / 5000, hN⟩, flush1_4 _, ?_⟩
  rw [mem_blk_we]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    omega

/-- After the launch the weights array is logistic(f · a + b) of the arrays as the launch finds them. -/
theorem array_w (c : Dev nD) :
    (dat1 (F := Ideal) V c).arrAt 3 cfg1.N = Cert.Stages.attW (V c main_v55) (V c main_arg3) (V c main_v56) :=
  (dat1 (F := Ideal) V c).arrAt_eq_of_cover 3 _ (fun t _ => flushed_w V c t) cover_w

/-- After the launch the weighted-rows array is w · f of the arrays as the launch finds them. -/
theorem array_we (c : Dev nD) :
    (dat1 (F := Ideal) V c).arrAt 4 cfg1.N = Cert.Stages.attWE (V c main_v55) (V c main_arg3) (V c main_v56) :=
  (dat1 (F := Ideal) V c).arrAt_eq_of_cover 4 _ (fun t _ => flushed_we V c t) cover_we

end Cert.KernelIdeal.Attn

end
-- ==== Proof.KDiv.lean ====
/-
  The third kernel launch, read as one whole-array function.

  The grid has 20 points; point t handles the node rows 5000·t … 5000·t + 4999. From its blocks of the numerator
  rows and of the denominators, one per row, it writes back each numerator entry divided by the larger of its row's
  denominator and ε. The points' rows partition the 100000 node rows, so after the launch the output array is
  num / max(den, ε) at every entry.
-/
import proofs.«163240_j34883724378624_2_alg».proof.Proof.Gen.KernelIdeal.Frame
import proofs.«163240_j34883724378624_2_alg».proof.Proof.Stages
import proofs.«163240_j34883724378624_2_alg».proof.Proof.LibKeepdims
import Idealize.ShloMosaic.Lib.Pipeline.Value
import Idealize.ShloMosaic.Lib.ValueLayout

set_option maxRecDepth 16384

noncomputable section

open scoped BigOperators

namespace Cert.KernelIdeal.Div

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's value at (a, q) of its block. -/
theorem payload_at (x1 : Vec Ideal S5000x1 .f32) (x0 : Vec Ideal S5000x128 .f32) (a : Fin 5000) (q : Fin 128) :
    k2_pay1 x1 x0 (ix2 a q)
      = Ideal.div (x0 (ix2 a q)) (max (x1 (ix2 a (0 : Fin 1))) (Ideal.ofBits .f32 0x2B8CBCCC#32)) := by
  unfold k2_pay1
  show Ideal.div (shapeCast S5000x128 x0 shapeCasts_S5000x128_S5000x128 (ix2 a q))
      (broadcastTo S5000x128 (maximumf (shapeCast S5000x1 x1 shapeCasts_S5000x1_S5000x1)
        (broadcast S5000x1 (Scalar.ofBits (F := Ideal) .f32 0x2B8CBCCC#32))) broadcasts_S5000x1_S5000x128 (ix2 a q)) = _
  refine congrArg₂ Ideal.div ?_ ?_
  · rw [shapeCast_self]
  · refine (Cert.LibKeepdims.broadcastTo_a1_ab_apply (a := 5000) (b := 128) _ _ a q).trans ?_
    rw [shapeCast_self]
    rfl

/-- Where the windows' blocks sit at point t. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem lt_N (t : Fin cfg2.N) : t.val < 20 := lt_of_lt_of_eq t.isLt N_2

/-- The node row that row a of point t's block is. -/
def row (t : Fin cfg2.N) (a : Fin 5000) : Fin 100000 := ⟨5000 * t.val + a.val, by have := lt_N t; have := a.isLt; omega⟩

theorem emb_num (t : Fin cfg2.N) (a : Fin 5000) (b : Fin 128) : ((cfg2.win 0).blk t).view.emb (ix2 a b) = ix2 (row t a) b := by
  have hf := idx_facts t
  funext d; apply Fin.ext
  match d with
  | ⟨0, _⟩ => show win2_0.index t (0 : Fin 2) * 5000 + 1 * a.val = 5000 * t.val + a.val; omega
  | ⟨1, _⟩ => show win2_0.index t (1 : Fin 2) * 128 + 1 * b.val = b.val; omega
theorem emb_den (t : Fin cfg2.N) (a : Fin 5000) (b : Fin 1) : ((cfg2.win 1).blk t).view.emb (ix2 a b) = ix2 (row t a) b := by
  have hf := idx_facts t
  funext d; apply Fin.ext
  match d with
  | ⟨0, _⟩ => show win2_1.index t (0 : Fin 2) * 5000 + 1 * a.val = 5000 * t.val + a.val; omega
  | ⟨1, _⟩ => show win2_1.index t (1 : Fin 2) * 1 + 1 * b.val = b.val; omega
theorem emb_out (t : Fin cfg2.N) (a : Fin 5000) (b : Fin 128) : ((cfg2.win 2).blk t).view.emb (ix2 a b) = ix2 (row t a) b := by
  have hf := idx_facts t
  funext d; apply Fin.ext
  match d with
  | ⟨0, _⟩ => show win2_2.index t (0 : Fin 2) * 5000 + 1 * a.val = 5000 * t.val + a.val; omega
  | ⟨1, _⟩ => show win2_2.index t (1 : Fin 2) * 128 + 1 * b.val = b.val; omega

/-- The body's value at (a, q) when its blocks are the rows of point t: the quotient at that node row. -/
theorem block_value (A0 : Cert.Stages.Arr S100000x128) (A1 : Cert.Stages.Arr S100000x1)
    (t : Fin cfg2.N) (a : Fin 5000) (q : Fin 128)
    (x0 : Vec Ideal S5000x128 .f32) (x1 : Vec Ideal S5000x1 .f32)
    (h0 : x0 (ix2 a q) = A0 (ix2 (row t a) q)) (h1 : x1 (ix2 a (0 : Fin 1)) = A1 (ix2 (row t a) (0 : Fin 1))) :
    k2_pay1 x1 x0 (ix2 a q) = Cert.Stages.ratio A0 A1 (ix2 (row t a) q) := by
  rw [payload_at, h0, h1]
  rfl

/-- What point t writes back is block t of num / max(den, ε). -/
theorem flushed_eq (c : Dev nD) (t : Fin cfg2.N) :
    (dat2 (F := Ideal) V c).flushed 2 t
      = ((cfg2.win 2).blk t).view.read (Elt Ideal) (Cert.Stages.ratio (V c main_v67) (V c main_v77)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S5000x1) hz]
  funext y
  obtain ⟨a, q, rfl⟩ : ∃ (a : Fin 5000) (q : Fin 128), y = ix2 a q := ⟨y 0, y 1, eq_ix2 y⟩
  refine (block_value (V c main_v67) (V c main_v77) t a q (iblk2 V c 0 t) (iblk2 V c 1 t)
    (congrArg (V c main_v67) (emb_num t a q)) (congrArg (V c main_v77) (emb_den t a 0))).trans ?_
  exact (congrArg (Cert.Stages.ratio (V c main_v67) (V c main_v77)) (emb_out t a q)).symm

theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v78).slice (win2_2.rect t)).set ↔ _
  rw [View.set_slice_whole, Rect.mem_set_unit]
  exact Iff.rfl
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := by show _ < grid2.N; rw [N_2]; omega
  have hf := idx_facts ⟨(i 0).val / 5000, hN⟩
  have hv : (⟨(i 0).val / 5000, hN⟩ : Fin cfg2.N).val = (i 0).val / 5000 := rfl
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    omega

/-- After the launch the output array is num / max(den, ε) of the arrays as the launch finds them. -/
theorem array_eq (c : Dev nD) :
    (dat2 (F := Ideal) V c).arrAt 2 cfg2.N = Cert.Stages.ratio (V c main_v67) (V c main_v77) :=
  (dat2 (F := Ideal) V c).arrAt_eq_of_cover 2 _ (fun t _ => flushed_eq V c t) cover

end Cert.KernelIdeal.Div

end
-- ==== Proof.KCompose.lean ====
/-
  The kernel program's result as one function of its arguments.

  The run passes six boundaries: a host stretch, a launch, a host stretch, a launch, a host stretch, a launch. At
  each boundary the buffers that matter are named: the bias row; the projected node rows x · θ + b; the twice-smoothed
  edge rows and the attention bias; the edge weights and the weighted edge rows; the numerator and the denominator;
  the result. No stretch and no launch writes an argument, so every argument reads as at the start throughout.
-/
import proofs.«163240_j34883724378624_2_alg».proof.Proof.Gen.KernelIdeal.Frame
import proofs.«163240_j34883724378624_2_alg».proof.Proof.Stages
import proofs.«163240_j34883724378624_2_alg».proof.Proof.KHost
import proofs.«163240_j34883724378624_2_alg».proof.Proof.KLinear
import proofs.«163240_j34883724378624_2_alg».proof.Proof.KAttn
import proofs.«163240_j34883724378624_2_alg».proof.Proof.KDiv

set_option maxRecDepth 16384

noncomputable section

namespace Cert.KernelIdeal.Compose

open Cert.KernelIdeal Cert.KernelIdeal.Gen Idealize.ShloMosaic Idealize.ShloMosaic.TcCoe Idealize.SL.Sem

/-- The result of the kernel program, from the arguments: x, θ, the bias, the attention vector and bias, the node
    words and the edge words of the incidences. -/
def value (x : Cert.Stages.Arr S100000x128) (θ : Cert.Stages.Arr S128x128) (b : Cert.Stages.Arr S128)
    (aw : Cert.Stages.Arr S128x1) (ab : Cert.Stages.Arr S1) (n e : Cert.Stages.Words) : Cert.Stages.Arr S100000x128 :=
  Cert.Stages.ratio
    (Cert.Stages.numOf (Cert.Stages.attWE (Cert.Stages.smoothMul (Cert.Stages.lin x θ (shapeCast S1x128 b shapeCasts_S128_S1x128)) n e) aw
      (shapeCast S1x1 ab shapeCasts_S1_S1x1)) n e)
    (Cert.Stages.denOf (Cert.Stages.attW (Cert.Stages.smoothMul (Cert.Stages.lin x θ (shapeCast S1x128 b shapeCasts_S128_S1x128)) n e) aw
      (shapeCast S1x1 ab shapeCasts_S1_S1x1)) n e)

variable (m : (ℓ : Loc nD τ sig) → Buf (Elt Ideal) ℓ) (ρ : Dev nD → PrngReg) (c : Dev nD)

/-! ## Region 0's entry -/

theorem W1_arg0 : W1 m ρ c (Proc.devRef .tc main_arg0) = (m ((c : Thread nD τ).loc main_arg0)) := (HostVal.keep0_arg0 (W0 m ρ c)).trans rfl
theorem W1_arg1 : W1 m ρ c (Proc.devRef .tc main_arg1) = (m ((c : Thread nD τ).loc main_arg1)) := (HostVal.keep0_arg1 (W0 m ρ c)).trans rfl
theorem W1_arg3 : W1 m ρ c (Proc.devRef .tc main_arg3) = (m ((c : Thread nD τ).loc main_arg3)) := (HostVal.keep0_arg3 (W0 m ρ c)).trans rfl
theorem W1_arg4 : W1 m ρ c (Proc.devRef .tc main_arg4) = (m ((c : Thread nD τ).loc main_arg4)) := (HostVal.keep0_arg4 (W0 m ρ c)).trans rfl
theorem W1_arg5 : W1 m ρ c (Proc.devRef .tc main_arg5) = (m ((c : Thread nD τ).loc main_arg5)) := (HostVal.keep0_arg5 (W0 m ρ c)).trans rfl
theorem W1_arg6 : W1 m ρ c (Proc.devRef .tc main_arg6) = (m ((c : Thread nD τ).loc main_arg6)) := (HostVal.keep0_arg6 (W0 m ρ c)).trans rfl
theorem W1_bias : W1 m ρ c (Proc.devRef .tc main_v0) = shapeCast S1x128 (m ((c : Thread nD τ).loc main_arg2)) shapeCasts_S128_S1x128 := (HostVal.bias_row (W0 m ρ c)).trans rfl

/-! ## Region 0's exit -/

theorem W2_rows : W2 m ρ c (Proc.devRef .tc main_v1) = (Cert.Stages.lin (m ((c : Thread nD τ).loc main_arg0)) (m ((c : Thread nD τ).loc main_arg1)) (shapeCast S1x128 (m ((c : Thread nD τ).loc main_arg2)) shapeCasts_S128_S1x128)) := by
  refine (W2_arr m ρ c 3).trans ?_
  refine (Linear.array_eq (V1 m ρ) c).trans ?_
  show Cert.Stages.lin (W1 m ρ c (Proc.devRef .tc main_arg0)) (W1 m ρ c (Proc.devRef .tc main_arg1)) (W1 m ρ c (Proc.devRef .tc main_v0)) = _
  rw [W1_arg0, W1_arg1, W1_bias]
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)

/-! ## Region 1's entry -/

theorem W3_edges : W3 m ρ c (Proc.devRef .tc main_v55) = (Cert.Stages.smoothMul (Cert.Stages.lin (m ((c : Thread nD τ).loc main_arg0)) (m ((c : Thread nD τ).loc main_arg1)) (shapeCast S1x128 (m ((c : Thread nD τ).loc main_arg2)) shapeCasts_S128_S1x128)) (m ((c : Thread nD τ).loc main_arg5)) (m ((c : Thread nD τ).loc main_arg6))) := by
  refine (HostVal.edge_rows (W2 m ρ c)).trans ?_
  rw [W2_rows, W2_arg5, W2_arg6]
theorem W3_bias : W3 m ρ c (Proc.devRef .tc main_v56) = (shapeCast S1x1 (m ((c : Thread nD τ).loc main_arg4)) shapeCasts_S1_S1x1) := by
  refine (HostVal.att_bias (W2 m ρ c)).trans ?_
  rw [W2_arg4]
theorem W3_arg3 : W3 m ρ c (Proc.devRef .tc main_arg3) = (m ((c : Thread nD τ).loc main_arg3)) := (HostVal.keep1_arg3 (W2 m ρ c)).trans (W2_arg3 m ρ c)
theorem W3_arg5 : W3 m ρ c (Proc.devRef .tc main_arg5) = (m ((c : Thread nD τ).loc main_arg5)) := (HostVal.keep1_arg5 (W2 m ρ c)).trans (W2_arg5 m ρ c)
theorem W3_arg6 : W3 m ρ c (Proc.devRef .tc main_arg6) = (m ((c : Thread nD τ).loc main_arg6)) := (HostVal.keep1_arg6 (W2 m ρ c)).trans (W2_arg6 m ρ c)

/-! ## Region 1's exit -/

theorem W4_w : W4 m ρ c (Proc.devRef .tc main_v57_0) = (Cert.Stages.attW (Cert.Stages.smoothMul (Cert.Stages.lin (m ((c : Thread nD τ).loc main_arg0)) (m ((c : Thread nD τ).loc main_arg1)) (shapeCast S1x128 (m ((c : Thread nD τ).loc main_arg2)) shapeCasts_S128_S1x128)) (m ((c : Thread nD τ).loc main_arg5)) (m ((c : Thread nD τ).loc main_arg6))) (m ((c : Thread nD τ).loc main_arg3)) (shapeCast S1x1 (m ((c : Thread nD τ).loc main_arg4)) shapeCasts_S1_S1x1)) := by
  refine (W4_arr m ρ c 3).trans ?_
  refine (Attn.array_w (V3 m ρ) c).trans ?_
  show Cert.Stages.attW (W3 m ρ c (Proc.devRef .tc main_v55)) (W3 m ρ c (Proc.devRef .tc main_arg3)) (W3 m ρ c (Proc.devRef .tc main_v56)) = _
  rw [W3_edges, W3_arg3, W3_bias]
theorem W4_we : W4 m ρ c (Proc.devRef .tc main_v57_1) = (Cert.Stages.attWE (Cert.Stages.smoothMul (Cert.Stages.lin (m ((c : Thread nD τ).loc main_arg0)) (m ((c : Thread nD τ).loc main_arg1)) (shapeCast S1x128 (m ((c : Thread nD τ).loc main_arg2)) shapeCasts_S128_S1x128)) (m ((c : Thread nD τ).loc main_arg5)) (m ((c : Thread nD τ).loc main_arg6))) (m ((c : Thread nD τ).loc main_arg3)) (shapeCast S1x1 (m ((c : Thread nD τ).loc main_arg4)) shapeCasts_S1_S1x1)) := by
  refine (W4_arr m ρ c 4).trans ?_
  refine (Attn.array_we (V3 m ρ) c).trans ?_
  show Cert.Stages.attWE (W3 m ρ c (Proc.devRef .tc main_v55)) (W3 m ρ c (Proc.devRef .tc main_arg3)) (W3 m ρ c (Proc.devRef .tc main_v56)) = _
  rw [W3_edges, W3_arg3, W3_bias]
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

/-! ## Region 2's entry -/

theorem W5_num : W5 m ρ c (Proc.devRef .tc main_v67) = (Cert.Stages.numOf (Cert.Stages.attWE (Cert.Stages.smoothMul (Cert.Stages.lin (m ((c : Thread nD τ).loc main_arg0)) (m ((c : Thread nD τ).loc main_arg1)) (shapeCast S1x128 (m ((c : Thread nD τ).loc main_arg2)) shapeCasts_S128_S1x128)) (m ((c : Thread nD τ).loc main_arg5)) (m ((c : Thread nD τ).loc main_arg6))) (m ((c : Thread nD τ).loc main_arg3)) (shapeCast S1x1 (m ((c : Thread nD τ).loc main_arg4)) shapeCasts_S1_S1x1)) (m ((c : Thread nD τ).loc main_arg5)) (m ((c : Thread nD τ).loc main_arg6))) := by
  refine (HostVal.num (W4 m ρ c)).trans ?_
  rw [W4_we, W4_arg5, W4_arg6]
theorem W5_den : W5 m ρ c (Proc.devRef .tc main_v77) = (Cert.Stages.denOf (Cert.Stages.attW (Cert.Stages.smoothMul (Cert.Stages.lin (m ((c : Thread nD τ).loc main_arg0)) (m ((c : Thread nD τ).loc main_arg1)) (shapeCast S1x128 (m ((c : Thread nD τ).loc main_arg2)) shapeCasts_S128_S1x128)) (m ((c : Thread nD τ).loc main_arg5)) (m ((c : Thread nD τ).loc main_arg6))) (m ((c : Thread nD τ).loc main_arg3)) (shapeCast S1x1 (m ((c : Thread nD τ).loc main_arg4)) shapeCasts_S1_S1x1)) (m ((c : Thread nD τ).loc main_arg5)) (m ((c : Thread nD τ).loc main_arg6))) := by
  refine (HostVal.den (W4 m ρ c)).trans ?_
  rw [W4_w, W4_arg5, W4_arg6]

/-! ## The result -/

/-- The result buffer at the last boundary is the program's value of the arguments as launched. -/
theorem result_eq : W6 m ρ c (Proc.devRef .tc main_v78)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 2).trans ?_
  refine (Div.array_eq (V5 m ρ) c).trans ?_
  show Cert.Stages.ratio (W5 m ρ c (Proc.devRef .tc main_v67)) (W5 m ρ c (Proc.devRef .tc main_v77)) = _
  rw [W5_num, W5_den]
  rfl

end Cert.KernelIdeal.Compose

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«163240_j34883724378624_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibCountMean.lean ====
/-
  Counts and means on the extended reals.

  A count — a scatter-add of ones into zeros along a column of row numbers — holds at every entry a nonnegative
  real number: the number of updates that land there. The larger of such a number and 1 is a real not below 1, and
  for a real divisor c not below 1 every extended real x, the infinities included, has x · (1 / c) = x / c. So a
  segment mean written as a sum times the reciprocal count and one written as the sum divided by the count agree
  with no finiteness assumed of the sums. Also the host's quotient of two arrays read at an index.
-/
import Idealize.ShloMosaic.Lib.ValueIdx
import Idealize.ShloMosaic.PureOps.Ideal
import proofs.«163240_j34883724378624_2_alg».proof.Proof.LibScatterSum
import proofs.«163240_j34883724378624_2_alg».proof.Proof.LibGcnLaws

noncomputable section

open scoped BigOperators

namespace Cert.LibCountMean

open Idealize.ShloMosaic Idealize.ShloMosaic.ValueIdx

/-- A scatter of ones into zeros holds, at every entry, a nonnegative real: the number of updates landing there. -/
theorem count_real {N E : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ 32) (u : (⟨1, ![E]⟩ : Shape).Idx → EReal)
    (hz : ∀ i, z i = 0) (hu : ∀ j, u j = 1) (p : Fin N) :
    ∃ r : ℝ, 0 ≤ r ∧ Ideal.hostScatterAdd (RowScatter.vecDims N E wf) z idx u (ix1 p) = (r : EReal) := by
  rw [RowScatter.vecScatterAdd_apply, hz]
  simp only [hu]
  obtain ⟨r, hr, hs⟩ := GcnLaws.sum_zero_one_real
    (Finset.univ.filter (fun e : Fin E => (idx (ix2 e (0 : Fin 1))).toInt = (p.val : Int))) (fun _ => (1 : EReal)) (fun _ => Or.inr rfl)
  exact ⟨r, hr, by rw [hs, zero_add]⟩

/-- The larger of a nonnegative real and 1 is a real not below 1. -/
theorem max_one_real (r : ℝ) : ∃ s : ℝ, 1 ≤ s ∧ max ((r : ℝ) : EReal) 1 = (s : EReal) := by
  rcases le_total r 1 with h | h
  · exact ⟨1, le_refl _, by rw [max_eq_right (by exact_mod_cast h)]; exact EReal.coe_one.symm⟩
  · exact ⟨r, h, max_eq_left (by exact_mod_cast h)⟩

/-- The host's quotient of two arrays, read at an index: the quotient of the two entries. -/
theorem hostDivf_at {s : Shape} {φ : FTy} (x y : FVec Ideal s φ) (i : s.Idx) : Host.divf x y i = Ideal.div (x i) (y i) := rfl

/-- For a real divisor not below 1, a product with the reciprocal is the quotient, on every extended real. -/
theorem mean_law (x : EReal) (s : ℝ) (hs : 1 ≤ s) : x * Ideal.div 1 (s : EReal) = Ideal.div x (s : EReal) := by
  have h0 : s ≠ 0 := by linarith
  rw [Ideal.div_coe h0, Ideal.div_coe h0, one_mul]

end Cert.LibCountMean

end
-- ==== Proof.Laws.lean ====
/-
  The laws that join the two arrangements.

  (1) A count of incidences is a finite sum of ones: a nonnegative real. So max(count, 1) is a real number not
      below 1, and for such a divisor c every extended real x has x · (1 / c) = x / c. A row sum times the
      reciprocal count is therefore the row sum divided by the count, whatever the row sum is.
  (2) Gathering rows commutes with multiplying each row by its own weight: the row of w · f that an incidence
      names is the weight of the named edge times the named row of f.
-/
import proofs.«163240_j34883724378624_2_alg».proof.Proof.Stages
import proofs.«163240_j34883724378624_2_alg».proof.Proof.LibRowGather
import proofs.«163240_j34883724378624_2_alg».proof.Proof.LibScatterSum
import proofs.«163240_j34883724378624_2_alg».proof.Proof.LibHostKeepdims
import proofs.«163240_j34883724378624_2_alg».proof.Proof.LibGcnLaws
import proofs.«163240_j34883724378624_2_alg».proof.Proof.LibCountMean

noncomputable section

open scoped BigOperators

namespace Cert.Stages

open Cert.ReferenceIdeal Cert.ReferenceIdeal.Gen Idealize.ShloMosaic Idealize.ShloMosaic.ValueIdx Cert.LibCountMean

/-! ## Splats and spreads at an index -/

theorem oneOf_apply (s : Shape) (h : S_.BroadcastsInDim s (![] : Fin 0 → Fin s.rank)) (i : s.Idx) : oneOf s h i = 1 :=
  (broadcastInDim_apply _ h _ i ix0 (fun a => a.elim0)).trans GcnLaws.ofBits_one_f32

theorem zeroOf_apply (s : Shape) (h : S_.BroadcastsInDim s (![] : Fin 0 → Fin s.rank)) (i : s.Idx) : zeroOf s h i = 0 :=
  (broadcastInDim_apply _ h _ i ix0 (fun a => a.elim0)).trans Ideal.ofBits_zero_f32

theorem spreadE_apply (v : Arr S25000) (p : Fin 25000) (q : Fin 128) : spreadE v (ix2 p q) = v (ix1 p) :=
  (Cert.LibHostKeepdims.bcast_a1_ab_apply (a := 25000) (b := 128) bcast_S25000x1_S25000x128_0_1 _ p q).trans
    (Cert.LibHostKeepdims.bcast_a_a1_apply (a := 25000) bcast_S25000_S25000x1_0 v p 0)

theorem spreadN_apply (v : Arr S100000) (p : Fin 100000) (q : Fin 128) : spreadN v (ix2 p q) = v (ix1 p) :=
  (Cert.LibHostKeepdims.bcast_a1_ab_apply (a := 100000) (b := 128) bcast_S100000x1_S100000x128_0_1 _ p q).trans
    (Cert.LibHostKeepdims.bcast_a_a1_apply (a := 100000) bcast_S100000_S100000x1_0 v p 0)

/-! ## Counts are real, and the mean law -/

theorem cntE_real (e : Words) (p : Fin 25000) : ∃ r : ℝ, 0 ≤ r ∧ cntE e (ix1 p) = (r : EReal) := by
  have hrec : scatter_S25000_S800000x1_S800000_n_0_0_1 = RowScatter.vecDims 25000 800000 scatter_S25000_S800000x1_S800000_n_0_0_1_wf := rfl
  have hdef : cntE e = Ideal.hostScatterAdd (RowScatter.vecDims 25000 800000 scatter_S25000_S800000x1_S800000_n_0_0_1_wf)
      (zeroOf S25000 bcast_S_S25000) (col e) (oneOf S800000 bcast_S_S800000) := by
    unfold cntE Host.scatterAdd
    rw [hrec]
    rfl
  rw [hdef]
  exact count_real _ _ _ _ (zeroOf_apply _ _) (oneOf_apply _ _) p

theorem cntN_real (n : Words) (p : Fin 100000) : ∃ r : ℝ, 0 ≤ r ∧ cntN n (ix1 p) = (r : EReal) := by
  have hrec : scatter_S100000_S800000x1_S800000_n_0_0_1 = RowScatter.vecDims 100000 800000 scatter_S100000_S800000x1_S800000_n_0_0_1_wf := rfl
  have hdef : cntN n = Ideal.hostScatterAdd (RowScatter.vecDims 100000 800000 scatter_S100000_S800000x1_S800000_n_0_0_1_wf)
      (zeroOf S100000 bcast_S_S100000) (col n) (oneOf S800000 bcast_S_S800000) := by
    unfold cntN Host.scatterAdd
    rw [hrec]
    rfl
  rw [hdef]
  exact count_real _ _ _ _ (zeroOf_apply _ _) (oneOf_apply _ _) p

theorem maxE_real (e : Words) (p : Fin 25000) : ∃ s : ℝ, 1 ≤ s ∧ maxE e (ix1 p) = (s : EReal) := by
  obtain ⟨r, -, hr⟩ := cntE_real e p
  obtain ⟨s, hs, hm⟩ := max_one_real r
  refine ⟨s, hs, ?_⟩
  unfold maxE
  rw [maximumf_apply, hr, oneOf_apply, hm]

theorem maxN_real (n : Words) (p : Fin 100000) : ∃ s : ℝ, 1 ≤ s ∧ maxN n (ix1 p) = (s : EReal) := by
  obtain ⟨r, -, hr⟩ := cntN_real n p
  obtain ⟨s, hs, hm⟩ := max_one_real r
  refine ⟨s, hs, ?_⟩
  unfold maxN
  rw [maximumf_apply, hr, oneOf_apply, hm]

theorem mean_E (s : Arr S25000x128) (e : Words) : mulf s (spreadE (invE e)) = Host.divf s (spreadE (maxE e)) := by
  funext i
  obtain ⟨p, q, rfl⟩ : ∃ (p : Fin 25000) (q : Fin 128), i = ix2 p q := ⟨i 0, i 1, eq_ix2 i⟩
  obtain ⟨r, hr, hm⟩ := maxE_real e p
  have h1 : spreadE (invE e) (ix2 p q) = Ideal.div 1 (r : EReal) := by
    rw [spreadE_apply]
    unfold invE
    rw [hostDivf_at, oneOf_apply, hm]
  have h2 : spreadE (maxE e) (ix2 p q) = (r : EReal) := by rw [spreadE_apply, hm]
  rw [mulf_apply, hostDivf_at, h1, h2]
  exact mean_law _ r hr

theorem mean_N (s : Arr S100000x128) (n : Words) : mulf s (spreadN (invN n)) = Host.divf s (spreadN (maxN n)) := by
  funext i
  obtain ⟨p, q, rfl⟩ : ∃ (p : Fin 100000) (q : Fin 128), i = ix2 p q := ⟨i 0, i 1, eq_ix2 i⟩
  obtain ⟨r, hr, hm⟩ := maxN_real n p
  have h1 : spreadN (invN n) (ix2 p q) = Ideal.div 1 (r : EReal) := by
    rw [spreadN_apply]
    unfold invN
    rw [hostDivf_at, oneOf_apply, hm]
  have h2 : spreadN (maxN n) (ix2 p q) = (r : EReal) := by rw [spreadN_apply, hm]
  rw [mulf_apply, hostDivf_at, h1, h2]
  exact mean_law _ r hr

/-- The two smoothings are one function of the node rows and the incidences. -/
theorem smooth_eq (h : Arr S100000x128) (n e : Words) : smoothMul h n e = smoothDiv h n e := by
  unfold smoothMul smoothDiv
  rw [mean_E, mean_N, mean_E]

/-! ## Gathering weighted rows -/

theorem gatherRows_apply (g : Arr S25000x128) (e : Words) (j : Fin 800000) (q : Fin 128) :
    Host.gather gather_S25000x128_S800000x1_S800000x128_1_0_n_n_0_1_1128 g (col (wrap 25000#32 e)) (ix2 j q)
      = g (ix2 (RowGather.rowOf (N := 25000) (by decide) (col (wrap 25000#32 e) (ix2 j (0 : Fin 1)))) q) := by
  have hrec : gather_S25000x128_S800000x1_S800000x128_1_0_n_n_0_1_1128
      = RowGather.rowDims 25000 800000 128 gather_S25000x128_S800000x1_S800000x128_1_0_n_n_0_1_1128_wf := rfl
  rw [hrec]
  exact RowGather.rowGather_apply (by decide) _ g _ j q

theorem pairW_apply (w : Arr S25000x1) (e : Words) (j : Fin 800000) (u : Fin 1) :
    pairW w e (ix2 j u) = w (ix2 (RowGather.rowOf (N := 25000) (by decide) (col (wrap 25000#32 e) (ix2 j (0 : Fin 1)))) u) := by
  have hrec : gather_S25000x1_S800000x1_S800000x1_1_0_n_n_0_1_11
      = RowGather.rowDims 25000 800000 1 gather_S25000x1_S800000x1_S800000x1_1_0_n_n_0_1_11_wf := rfl
  unfold pairW
  rw [hrec]
  exact RowGather.rowGather_apply (by decide) _ w _ j u

/-- The numerator as the other side spells it: the gathered weights spread over the gathered rows, then summed. -/
def numRef (w : Arr S25000x1) (f : Arr S25000x128) (n e : Words) : Arr S100000x128 :=
  Host.scatterAdd scatter_S100000x128_S800000x1_S800000x128_1_0_0_1 (zeroOf S100000x128 bcast_S_S100000x128) (col n)
    (mulf (broadcastInDim S800000x128 ![0, 1] bcast_S800000x1_S800000x128_0_1 (pairW w e))
      (Host.gather gather_S25000x128_S800000x1_S800000x128_1_0_n_n_0_1_1128 f (col (wrap 25000#32 e))))

/-- The row of w · f an incidence names is the named edge's weight times its named row of f. -/
theorem weighted_rows (f : Arr S25000x128) (a : Arr S128x1) (b : Arr S1x1) (e : Words) :
    Host.gather gather_S25000x128_S800000x1_S800000x128_1_0_n_n_0_1_1128 (attWE f a b) (col (wrap 25000#32 e))
      = mulf (broadcastInDim S800000x128 ![0, 1] bcast_S800000x1_S800000x128_0_1 (pairW (attW f a b) e))
          (Host.gather gather_S25000x128_S800000x1_S800000x128_1_0_n_n_0_1_1128 f (col (wrap 25000#32 e))) := by
  funext i
  obtain ⟨j, q, rfl⟩ : ∃ (j : Fin 800000) (q : Fin 128), i = ix2 j q := ⟨i 0, i 1, eq_ix2 i⟩
  rw [gatherRows_apply]
  show _ = broadcastInDim S800000x128 ![0, 1] bcast_S800000x1_S800000x128_0_1 (pairW (attW f a b) e) (ix2 j q)
    * Host.gather gather_S25000x128_S800000x1_S800000x128_1_0_n_n_0_1_1128 f (col (wrap 25000#32 e)) (ix2 j q)
  rw [gatherRows_apply, Cert.LibHostKeepdims.bcast_a1_ab_apply (a := 800000) (b := 128), pairW_apply]
  rfl

theorem num_eq (f : Arr S25000x128) (a : Arr S128x1) (b : Arr S1x1) (n e : Words) :
    numOf (attWE f a b) n e = numRef (attW f a b) f n e := by
  unfold numOf numRef
  rw [weighted_rows]

end Cert.Stages

end
-- ==== Proof.Bridge.lean ====
/-
  The two programs compute one function.

  The reference's operations, read in order, are the stage functions: its edge rows are the
  smoothing with quotients of its node rows; its weights are 1 / (1 + exp(−(f · a + b))); its numerator gathers the
  weights and the rows separately and multiplies them; its result is num / max(den, ε). Each dense stage is then read
  entry by entry over arbitrary tables: x · θ + b on both sides; the spelled-out quotient is the logistic function;
  the two quotients are one. With the smoothing law and the gather law the kernel program's value is the reference's.
-/
import proofs.«163240_j34883724378624_2_alg».proof.Proof.Gen.ReferenceIdeal.Read
import proofs.«163240_j34883724378624_2_alg».proof.Proof.Stages
import proofs.«163240_j34883724378624_2_alg».proof.Proof.Laws
import proofs.«163240_j34883724378624_2_alg».proof.Proof.LibCountMean
import proofs.«163240_j34883724378624_2_alg».proof.Proof.LibPlainDot
import proofs.«163240_j34883724378624_2_alg».proof.Proof.LibHostKeepdims
import proofs.«163240_j34883724378624_2_alg».proof.Proof.KCompose
import Idealize.ShloMosaic.Lib.ValueLayout

set_option maxRecDepth 16384

noncomputable section

open scoped BigOperators

namespace Cert.Bridge

open Cert.ReferenceIdeal Cert.ReferenceIdeal.Gen Cert.ReferenceIdeal.Read Cert.Stages Cert.LibCountMean Idealize.ShloMosaic Idealize.ShloMosaic.ValueIdx

/-! ## The reference's dense chains as functions of arbitrary tables -/

/-- The reference's weights: 1 / (1 + exp(−(f · a + b))), the bias spread from its one entry. -/
def refW (f : Arr S25000x128) (a : Arr S128x1) (b : Arr S1) : Arr S25000x1 :=
  Host.divf (oneOf S25000x1 bcast_S_S25000x1)
    (addf (oneOf S25000x1 bcast_S_S25000x1)
      (Host.exp (Host.negf (addf (Host.dotGeneral dot_S25000x128_S128x1_S25000x1_1_0_0_1_n_n none f a)
        (broadcastInDim S25000x1 ![0, 1] bcast_S1x1_S25000x1_0_1 (broadcastInDim S1x1 ![1] bcast_S1_S1x1_1 b))))))

/-- The reference's last stage: num / max(den, ε), the denominators spread over their rows. -/
def refOut (num : Arr S100000x128) (den : Arr S100000x1) : Arr S100000x128 :=
  Host.divf num (broadcastInDim S100000x128 ![0, 1] bcast_S100000x1_S100000x128_0_1
    (maximumf den (broadcastInDim S100000x1 ![] bcast_S_S100000x1 (constant (F := Ideal) S_ .f32 0x2B8CBCCC#32))))

theorem hostExp_at {s : Shape} (x : Arr s) (i : s.Idx) : Host.exp x i = Ideal.exp (x i) := rfl
theorem hostNegf_at {s : Shape} (x : Arr s) (i : s.Idx) : Host.negf x i = -(x i) := rfl

/-- The spelled-out quotient is the logistic function of the logit, at every edge row. -/
theorem refW_eq (f : Arr S25000x128) (a : Arr S128x1) (b : Arr S1) (b11 : Arr S1x1)
    (hb : b11 (ix2 (0 : Fin 1) (0 : Fin 1)) = b (ix1 (0 : Fin 1))) : refW f a b = attW f a b11 := by
  funext i
  obtain ⟨p, u, rfl⟩ : ∃ (p : Fin 25000) (u : Fin 1), i = ix2 p u := ⟨i 0, i 1, eq_ix2 i⟩
  obtain rfl : u = 0 := Subsingleton.elim u 0
  have hdot : Host.dotGeneral dot_S25000x128_S128x1_S25000x1_1_0_0_1_n_n none f a (ix2 p (0 : Fin 1))
      = ∑ k : Fin 128, f (ix2 p k) * a (ix2 k (0 : Fin 1)) := by
    have hd : dot_S25000x128_S128x1_S25000x1_1_0_0_1_n_n = DotDims.plain 25000 128 1 := rfl
    show FloatOps.dotGeneral dot_S25000x128_S128x1_S25000x1_1_0_0_1_n_n none .single f a (ix2 p (0 : Fin 1)) = _
    rw [hd]
    exact PlainDot.dotGeneral_apply 25000 128 1 none .single f a p 0
  have hbias : broadcastInDim S25000x1 ![0, 1] bcast_S1x1_S25000x1_0_1 (broadcastInDim S1x1 ![1] bcast_S1_S1x1_1 b) (ix2 p (0 : Fin 1))
      = b (ix1 (0 : Fin 1)) := by
    refine (broadcastInDim_apply _ bcast_S1x1_S25000x1_0_1 _ (ix2 p (0 : Fin 1)) (ix2 (0 : Fin 1) (0 : Fin 1)) (fun d => match d with
      | ⟨0, _⟩ => by show 0 = if (1 : Nat) = 1 then 0 else p.val; rw [if_pos rfl]
      | ⟨1, _⟩ => by show 0 = if (1 : Nat) = 1 then 0 else 0; rw [if_pos rfl])).trans ?_
    exact broadcastInDim_apply _ bcast_S1_S1x1_1 b (ix2 (0 : Fin 1) (0 : Fin 1)) (ix1 (0 : Fin 1)) (fun d => match d with
      | ⟨0, _⟩ => by show 0 = if (1 : Nat) = 1 then 0 else 0; rw [if_pos rfl])
  unfold refW attW
  rw [hostDivf_at, addf_apply, hostExp_at, hostNegf_at, addf_apply, oneOf_apply, hdot, hbias, ← hb]
  rfl

/-- The reference's last stage is the quotient entry by entry. -/
theorem refOut_eq (num : Arr S100000x128) (den : Arr S100000x1) : refOut num den = ratio num den := by
  funext i
  obtain ⟨p, q, rfl⟩ : ∃ (p : Fin 100000) (q : Fin 128), i = ix2 p q := ⟨i 0, i 1, eq_ix2 i⟩
  have heps : ∀ j : S100000x1.Idx, broadcastInDim S100000x1 ![] bcast_S_S100000x1 (constant (F := Ideal) S_ .f32 0x2B8CBCCC#32) j
      = Ideal.ofBits .f32 0x2B8CBCCC#32 := fun j => (broadcastInDim_apply _ bcast_S_S100000x1 _ j ix0 (fun d => d.elim0)).trans rfl
  unfold refOut ratio
  rw [hostDivf_at, Cert.LibHostKeepdims.bcast_a1_ab_apply (a := 100000) (b := 128), maximumf_apply, heps]

/-- The reference's node rows are x · θ + b, for any one-row spelling of the bias. -/
theorem node_rows (x0 : (⟨S100000x128, .f32⟩ : BufTy).Contents (Elt Ideal)) (x1 : (⟨S128x128, .f32⟩ : BufTy).Contents (Elt Ideal)) (x2 : (⟨S128, .f32⟩ : BufTy).Contents (Elt Ideal)) (b1 : Arr S1x128)
    (hb : ∀ q : Fin 128, b1 (ix2 (0 : Fin 1) q) = x2 (ix1 q)) :
    val_main_v3 (F := Ideal) x0 x1 x2 = lin x0 x1 b1 := by
  funext i
  obtain ⟨p, q, rfl⟩ : ∃ (p : Fin 100000) (q : Fin 128), i = ix2 p q := ⟨i 0, i 1, eq_ix2 i⟩
  rw [val_main_v3_apply, val_main_v0_apply, val_main_v2_apply, val_main_v1_apply]
  have e1 : ∀ k : Fin 128, lidx_main_v0 (ix2 p q) k = ix2 p k := fun k => funext fun d => Fin.ext (by
    match d with
    | ⟨0, _⟩ => rfl
    | ⟨1, _⟩ => rfl)
  have e2 : ∀ k : Fin 128, ridx_main_v0 (ix2 p q) k = ix2 k q := fun k => funext fun d => Fin.ext (by
    match d with
    | ⟨0, _⟩ => rfl
    | ⟨1, _⟩ => rfl)
  have e3 : idx_main_v1 (idx_main_v2 (ix2 p q)) = ix1 q := funext fun d => Fin.ext (by
    match d with
    | ⟨0, _⟩ => rfl)
  simp only [e1, e2, e3]
  rw [← hb q]
  rfl

/-! ## The reference's operations, grouped, are these stages -/

theorem edge_stage (x0 : (⟨S100000x128, .f32⟩ : BufTy).Contents (Elt Ideal)) (x1 : (⟨S128x128, .f32⟩ : BufTy).Contents (Elt Ideal)) (x2 : (⟨S128, .f32⟩ : BufTy).Contents (Elt Ideal)) (x5 x6 : (⟨S800000, .i32⟩ : BufTy).Contents (Elt Ideal)) :
    val_main_v60 (F := Ideal) x0 x1 x2 x5 x6 = smoothDiv (val_main_v3 (F := Ideal) x0 x1 x2) x5 x6 := by
  simp only [val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22, val_main_c_4, val_main_v23, val_main_v24, val_main_c_5, val_main_v25, val_main_v26, val_main_v27, val_main_v28, val_main_v29, val_main_cst_6, val_main_v30, val_main_v31, val_main_v32, val_main_cst_7, val_main_v33, val_main_cst_8, val_main_v34, val_main_v35, val_main_v36, val_main_cst_9, val_main_v37, val_main_v38, val_main_v39, val_main_v40, val_main_v41, val_main_c_10, val_main_v42, val_main_v43, val_main_c_11, val_main_v44, val_main_v45, val_main_v46, val_main_v47, val_main_v48, val_main_cst_12, val_main_v49, val_main_v50, val_main_v51, val_main_cst_13, val_main_v52, val_main_cst_14, val_main_v53, val_main_v54, val_main_v55, val_main_cst_15, val_main_v56, val_main_v57, val_main_v58, val_main_v59, val_main_v60, smoothDiv, toEdges, toNodes, spreadE, spreadN, maxE, maxN, cntE, cntN, col, wrap, zeroOf, oneOf]

theorem weight_stage (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) (x5 x6 : (⟨S800000, .i32⟩ : BufTy).Contents (Elt Ideal)) :
    val_main_v70 (F := Ideal) x0 x1 x2 x3 x4 x5 x6 = refW (val_main_v60 (F := Ideal) x0 x1 x2 x5 x6) x3 x4 := by
  simp only [val_main_v61, val_main_v62, val_main_v63, val_main_v64, val_main_v65, val_main_v66, val_main_cst_16, val_main_v67, val_main_v68, val_main_cst_17, val_main_v69, val_main_v70, refW, oneOf]

theorem num_stage (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) (x5 x6 : (⟨S800000, .i32⟩ : BufTy).Contents (Elt Ideal)) :
    val_main_v89 (F := Ideal) x0 x1 x2 x3 x4 x5 x6
      = numRef (val_main_v70 (F := Ideal) x0 x1 x2 x3 x4 x5 x6) (val_main_v60 (F := Ideal) x0 x1 x2 x5 x6) x5 x6 := by
  simp only [val_main_c_18, val_main_v71, val_main_v72, val_main_c_19, val_main_v73, val_main_v74, val_main_v75, val_main_v76, val_main_v77, val_main_c_20, val_main_v78, val_main_v79, val_main_c_21, val_main_v80, val_main_v81, val_main_v82, val_main_v83, val_main_v84, val_main_v85, val_main_v86, val_main_cst_22, val_main_v87, val_main_v88, val_main_v89, numRef, pairW, col, wrap, zeroOf]

theorem den_stage (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) (x5 x6 : (⟨S800000, .i32⟩ : BufTy).Contents (Elt Ideal)) :
    val_main_v92 (F := Ideal) x0 x1 x2 x3 x4 x5 x6 = denOf (val_main_v70 (F := Ideal) x0 x1 x2 x3 x4 x5 x6) x5 x6 := by
  simp only [val_main_c_18, val_main_v71, val_main_v72, val_main_c_19, val_main_v73, val_main_v74, val_main_v75, val_main_v76, val_main_v77, val_main_c_20, val_main_v78, val_main_v79, val_main_c_21, val_main_v80, val_main_v81, val_main_v82, val_main_v83, val_main_v84, val_main_v85, val_main_v86, val_main_cst_22, val_main_v87, val_main_v88, val_main_v89, val_main_cst_23, val_main_v90, val_main_v91, val_main_v92, denOf, pairW, col, wrap, zeroOf]

theorem out_stage (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) (x5 x6 : (⟨S800000, .i32⟩ : BufTy).Contents (Elt Ideal)) :
    val_main_v96 (F := Ideal) x0 x1 x2 x3 x4 x5 x6
      = refOut (val_main_v89 (F := Ideal) x0 x1 x2 x3 x4 x5 x6) (val_main_v92 (F := Ideal) x0 x1 x2 x3 x4 x5 x6) := by
  simp only [val_main_cst_24, val_main_v93, val_main_v94, val_main_v95, val_main_v96, refOut]

/-! ## The two values are equal -/

/-- The kernel program's value of any arguments is the reference's. -/
theorem value_eq (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x1, .f32⟩ : BufTy).Contents (Elt Ideal)) (x4 : (⟨S1, .f32⟩ : BufTy).Contents (Elt Ideal)) (x5 x6 : (⟨S800000, .i32⟩ : BufTy).Contents (Elt Ideal)) :
    Cert.KernelIdeal.Compose.value x0 x1 x2 x3 x4 x5 x6 = val_main_v96 (F := Ideal) x0 x1 x2 x3 x4 x5 x6 := by
  have hb1 : ∀ q : Fin 128, shapeCast Cert.KernelIdeal.S1x128 x2 Cert.KernelIdeal.Gen.shapeCasts_S128_S1x128 (ix2 (0 : Fin 1) q) = x2 (ix1 q) :=
    fun q => shapeCast_a_1a_apply x2 _ 0 q
  have hb2 : shapeCast Cert.KernelIdeal.S1x1 x4 Cert.KernelIdeal.Gen.shapeCasts_S1_S1x1 (ix2 (0 : Fin 1) (0 : Fin 1)) = x4 (ix1 (0 : Fin 1)) :=
    shapeCast_a_1a_apply x4 _ 0 0
  rw [out_stage, num_stage, den_stage, weight_stage, edge_stage,
    node_rows x0 x1 x2 (shapeCast Cert.KernelIdeal.S1x128 x2 Cert.KernelIdeal.Gen.shapeCasts_S128_S1x128) hb1,
    refW_eq _ x3 x4 (shapeCast Cert.KernelIdeal.S1x1 x4 Cert.KernelIdeal.Gen.shapeCasts_S1_S1x1) hb2,
    refOut_eq, ← num_eq, ← smooth_eq]
  rfl

end Cert.Bridge

end
-- ==== Proof.lean ====
/-
  A hypergraph attention layer: N = 100000 nodes, E = 25000 hyperedges, 800000 incidences, D = 128.

  Both programs project the node features (x · θ + b), average the node rows over each hyperedge's incidences, average
  those edge rows over each node's incidences, average again over the hyperedges, weight each edge row f by
  w = logistic(f · a + b'), sum w · f and w over each node's incidences, and return num / max(den, ε).

  They differ in three places, none of which changes a value on the extended reals:
   * a mean is a row sum times 1 / max(count, 1) on one side and the row sum divided by max(count, 1) on the other;
     a count is a finite sum of ones, so max(count, 1) is a real not below 1 and x · (1 / c) = x / c for every
     extended real x;
   * the logistic function is one operation on one side and the quotient 1 / (1 + exp(−z)) on the other: the same
     function by definition;
   * the weights multiply the edge rows before the rows are gathered along the incidences on one side, after on the
     other: gathering rows commutes with scaling each row by its own weight.
  Changes of float format, the tiling of the three dense stages into blocks of 5000 rows, and the order of the
  operations between them are not differences here. The precondition is not used: every law above holds at the
  infinities too.

  The three frames: the two kernel programs' by their generated frame proofs, the reference's by its generated run.
  Nothing was rewritten between the kernel and its idealization, so that conjunct is trivial. The last conjunct: the
  kernel program's run ends with its result at the last boundary's contents (Proof/KRun.lean), which is its value as one
  function of the arguments (Proof/KCompose.lean over Proof/KLinear.lean, KAttn.lean, KDiv.lean, KHost.lean); the
  reference's generated run ends at its composed term; the two are one function (Proof/Bridge.lean over Proof/Laws.lean).
-/
import proofs.«163240_j34883724378624_2_alg».proof.Defs
import proofs.«163240_j34883724378624_2_alg».proof.Proof.Gen.Kernel
import proofs.«163240_j34883724378624_2_alg».proof.Proof.Gen.Kernel.Frame
import proofs.«163240_j34883724378624_2_alg».proof.Proof.Gen.KernelIdeal
import proofs.«163240_j34883724378624_2_alg».proof.Proof.Gen.KernelIdeal.Frame
import proofs.«163240_j34883724378624_2_alg».proof.Proof.Gen.ReferenceIdeal
import proofs.«163240_j34883724378624_2_alg».proof.Proof.Gen.Pre_finite_inputs
import proofs.«163240_j34883724378624_2_alg».proof.Proof.Gen.ReferenceIdeal.Read
import proofs.«163240_j34883724378624_2_alg».proof.Proof.KRun
import proofs.«163240_j34883724378624_2_alg».proof.Proof.KCompose
import proofs.«163240_j34883724378624_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: the kernel program's value
    of its arguments, which is the reference's composed term of the same arguments. -/
theorem algebraic : Cert.algebraic_KernelIdeal_ReferenceIdeal := by
  intro m ρ m' ρ' _ hagree
  refine ⟨fun c => Cert.KernelIdeal.Compose.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Compose.result_eq m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v96_eq, a0, a1, a2, a3, a4, a5, a6]
    exact (Cert.Bridge.value_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
